-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S4096x256 .f32) (main_arg1 : FVec F S4096x256 .f32) (main_arg2 : FVec F S256x256 .f32) (main_arg3 : FVec F S256x256 .f32) (main_arg4 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4096x256 : Shape := ⟨2, ![4096, 256]⟩
abbrev S256x256 : Shape := ⟨2, ![256, 256]⟩
abbrev S128x256 : Shape := ⟨2, ![128, 256]⟩
abbrev S128x64 : Shape := ⟨2, ![128, 64]⟩
abbrev S256x64 : Shape := ⟨2, ![256, 64]⟩
abbrev S128x1x64 : Shape := ⟨3, ![128, 1, 64]⟩
abbrev S1x256x64 : Shape := ⟨3, ![1, 256, 64]⟩
abbrev S128x256x64 : Shape := ⟨3, ![128, 256, 64]⟩

abbrev nBuf : Space → Nat
  | .hbm => 9
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S4096x256, .f32⟩
  | .local _ .vmem, ⟨0, _⟩ => ⟨S128x256, .f32⟩
  | .local _ .vmem, ⟨1, _⟩ => ⟨S128x256, .f32⟩
  | .local _ .vmem, ⟨2, _⟩ => ⟨S256x256, .f32⟩
  | .local _ .vmem, ⟨3, _⟩ => ⟨S256x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x256_S256x256_1_0 : S256x256.Transposes [1, 0] S256x256
  inb_S128x256_S128x256_0_0 : ∀ a, (![0, 0] : Fin 2 → Nat) a + S128x256.size a ≤ S128x256.size a
  h_S128x256 : 0 < S128x256.numel
  slices_S128x256_o0_0_S128x64 : S128x256.Slices ![0, 0] S128x64
  inb_S256x256_S256x64_0_0 : ∀ a, (![0, 0] : Fin 2 → Nat) a + S256x64.size a ≤ S256x256.size a
  h_S256x64 : 0 < S256x64.numel
  shapeCasts_S256x64_S256x64 : S256x64.ShapeCasts S256x64
  shapeCasts_S128x64_S128x1x64 : S128x64.ShapeCasts S128x1x64
  shapeCasts_S256x64_S1x256x64 : S256x64.ShapeCasts S1x256x64
  broadcasts_S128x1x64_S128x256x64 : S128x1x64.Broadcasts S128x256x64
  broadcasts_S1x256x64_S128x256x64 : S1x256x64.Broadcasts S128x256x64
  reduces_S128x256x64_S128x256 : S128x256x64.Reduces [2] S128x256
  slices_S128x256_o0_64_S128x64 : S128x256.Slices ![0, 64] S128x64
  inb_S256x256_S256x64_0_64 : ∀ a, (![0, 64] : Fin 2 → Nat) a + S256x64.size a ≤ S256x256.size a
  slices_S128x256_o0_128_S128x64 : S128x256.Slices ![0, 128] S128x64
  inb_S256x256_S256x64_0_128 : ∀ a, (![0, 128] : Fin 2 → Nat) a + S256x64.size a ≤ S256x256.size a
  slices_S128x256_o0_192_S128x64 : S128x256.Slices ![0, 192] S128x64
  inb_S256x256_S256x64_0_192 : ∀ a, (![0, 192] : Fin 2 → Nat) a + S256x64.size a ≤ S256x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S4096x256.size a
  hwx0_0 : ∀ i : grid0.Coords, EltTy.bits .f32 = 32 ∨ (Rect.block (s := S4096x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S4096x256.size a
  hwx0_3 : ∀ i : grid0.Coords, EltTy.bits .f32 = 32 ∨ (Rect.block (s := S4096x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S4096x256.size a
  hwx0_4 : ∀ i : grid0.Coords, EltTy.bits .f32 = 32 ∨ (Rect.block (s := S4096x256) S128x256.size (cc0_transform_4 i) (hinb0_4 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S256x256x1 : Shape := ⟨3, ![256, 256, 1]⟩
abbrev S256x4096 : Shape := ⟨2, ![256, 4096]⟩
abbrev S256x1x4096 : Shape := ⟨3, ![256, 1, 4096]⟩
abbrev S256x256x4096 : Shape := ⟨3, ![256, 256, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256x1, .f32⟩
  | .hbm, ⟨6, _⟩ => ⟨S256x4096, .f32⟩
  | .hbm, ⟨7, _⟩ => ⟨S256x1x4096, .f32⟩
  | .hbm, ⟨8, _⟩ => ⟨S256x256x4096, .f32⟩
  | .hbm, ⟨9, _⟩ => ⟨S256x256x4096, .f32⟩
  | .hbm, ⟨10, _⟩ => ⟨S256x256x4096, .f32⟩
  | .hbm, ⟨11, _⟩ => ⟨S256x256, .f32⟩
  | .hbm, ⟨12, _⟩ => ⟨S256x256x1, .f32⟩
  | .hbm, ⟨13, _⟩ => ⟨S256x256x4096, .f32⟩
  | .hbm, ⟨14, _⟩ => ⟨S256x256x4096, .f32⟩
  | .hbm, ⟨15, _⟩ => ⟨S_, .f32⟩
  | .hbm, ⟨16, _⟩ => ⟨S256x4096, .f32⟩
  | .hbm, ⟨17, _⟩ => ⟨S256x4096, .f32⟩
  | .hbm, ⟨18, _⟩ => ⟨S256x4096, .f32⟩
  | .hbm, ⟨19, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S256x256_S256x256x1_0_1 : S256x256.BroadcastsInDim S256x256x1 (![0, 1] : Fin 2 → Fin S256x256x1.rank)
  transposes_S4096x256_S256x4096_1_0 : S4096x256.Transposes [1, 0] S256x4096
  bcast_S256x4096_S256x1x4096_0_2 : S256x4096.BroadcastsInDim S256x1x4096 (![0, 2] : Fin 2 → Fin S256x1x4096.rank)
  bcast_S256x256x1_S256x256x4096_0_1_2 : S256x256x1.BroadcastsInDim S256x256x4096 (![0, 1, 2] : Fin 3 → Fin S256x256x4096.rank)
  bcast_S256x1x4096_S256x256x4096_0_1_2 : S256x1x4096.BroadcastsInDim S256x256x4096 (![0, 1, 2] : Fin 3 → Fin S256x256x4096.rank)
  reducesTo_S256x256x4096_S256x4096_d0 : S256x256x4096.ReducesTo [0] S256x4096
  h_S_ : 0 < S_.numel
  transposes_S256x4096_S4096x256_1_0 : S256x4096.Transposes [1, 0] S4096x256

variable [Facts₀]

class Facts : Prop extends Facts₀ where

variable [Facts]
-- ==== Proof.Spec.lean ====
/-
  The function both programs compute, index by index, on the extended reals.

  For a row `k` of `x0` (4096 rows of 256 entries) and a column `j`:

      out[k, j] = max ( max_i ( x0[k, i] · W[i, j] + (B[i, j] + C[i, j]) ),  x1[k, j] ),      i over the 256 source rows,

  the inner maximum taken as a fold of `max` that starts from the value of the word `0xFF800000` (f32's −∞). The start is
  kept as that word's value: both programs start from the same word, so what it denotes never matters.
-/
import Idealize.ShloMosaic.PureOps.Ideal
import Idealize.ShloMosaic.Lib.ValueIdx

noncomputable section

namespace Cert.Spec

open Idealize.ShloMosaic Idealize.ShloMosaic.ValueIdx

/-- The shape of `x0`, `x1` and of the result: 4096 rows of 256. -/
abbrev SN : Shape := ⟨2, ![4096, 256]⟩
/-- The shape of the three parameter tables `C`, `W`, `B`: 256 source rows by 256 output columns. -/
abbrev SD : Shape := ⟨2, ![256, 256]⟩

/-- Where every running maximum starts: the value of f32's −∞ word. -/
abbrev start : EReal := Ideal.ofBits .f32 0xFF800000#32

/-- The quantity under the inner maximum, for row `k`, column `j` and source row `i`:
    `x0[k, i] · W[i, j] + (B[i, j] + C[i, j])`. -/
def term (x0 : SN.Idx → EReal) (C W B : SD.Idx → EReal) (k : Fin 4096) (j i : Fin 256) : EReal :=
  x0 (ix2 k i) * W (ix2 i j) + (B (ix2 i j) + C (ix2 i j))

/-- The result array: at `(k, j)` the maximum over the source rows `i` of `term`, then against `x1[k, j]`. -/
def G (x0 x1 : SN.Idx → EReal) (C W B : SD.Idx → EReal) : SN.Idx → EReal := fun y =>
  max ((Finset.univ : Finset (Fin 256)).fold max start (term x0 C W B (y 0) (y 1))) (x1 y)

end Cert.Spec

end
-- ==== Proof.RefValue.lean ====
/-
  The reference computes `Cert.Spec.G`.

  The reference builds the three-axis array  y[i, j, k] = W[i, j] · x0[k, i] + (B[i, j] + C[i, j])  (source row `i`, output
  column `j`, row `k`), reduces it with `max` over the source-row axis from −∞, takes the maximum against the transpose of
  `x1` and transposes back. Read at the result index `(k, j)`: the last transpose reads `(j, k)`; the reduction over one axis
  is the fold of `max` over that axis's 256 coordinates; each broadcast reads its operand at the coordinates it keeps; and
  the product commutes. That is `G` at `(k, j)`.
-/
import proofs.«119608_j47888885350936_2_alg».proof.Proof.Gen.ReferenceIdeal.Read
import proofs.«119608_j47888885350936_2_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Spec

/-- The reduction's shape fact in the form that names the inserted coordinate. -/
theorem hred : S256x256x4096.Reduces [(0 : Fin 3)] S256x4096 := by decide

/-- Over the result index `(j, k)` of the reduction, the source index with source row `i` inserted is `(i, j, k)`. -/
theorem lift_eq (j : Fin 256) (k : Fin 4096) (i : Fin 256) : hred.lift (ix2 j k) i = ix3 i j k := by
  funext a; apply Fin.ext
  match a with
  | ⟨0, _⟩ => rfl
  | ⟨1, _⟩ => rfl
  | ⟨2, _⟩ => rfl

/-- The array under the reduction at `(i, j, k)` is `x0[k, i] · W[i, j] + (B[i, j] + C[i, j])`: the broadcasts read the
    coordinates they keep, the transpose of `x0` swaps its two, and the product commutes. -/
theorem summand_apply (x0 : SN.Idx → EReal) (x2 x3 x4 : SD.Idx → EReal) (i j : Fin 256) (k : Fin 4096) :
    val_main_v9 (F := Ideal) x0 x2 x3 x4 (ix3 i j k) = term x0 x2 x3 x4 k j i := by
  rw [val_main_v9_apply, val_main_v5_apply, val_main_v3_apply, val_main_v0_apply, val_main_v4_apply, val_main_v2_apply,
    val_main_v1_apply, val_main_v8_apply, val_main_v7_apply, val_main_v6_apply]
  have e1 : idx_main_v0 (idx_main_v3 (ix3 i j k)) = ix2 i j :=
    funext fun a => Fin.ext (by match a with | ⟨0, _⟩ => rfl | ⟨1, _⟩ => rfl)
  have e2 : idx_main_v1 (idx_main_v2 (idx_main_v4 (ix3 i j k))) = ix2 k i :=
    funext fun a => Fin.ext (by match a with | ⟨0, _⟩ => rfl | ⟨1, _⟩ => rfl)
  have e3 : idx_main_v7 (idx_main_v8 (ix3 i j k)) = ix2 i j :=
    funext fun a => Fin.ext (by match a with | ⟨0, _⟩ => rfl | ⟨1, _⟩ => rfl)
  rw [e1, e2, e3]
  show x3 (ix2 i j) * x0 (ix2 k i) + (x4 (ix2 i j) + x2 (ix2 i j)) = x0 (ix2 k i) * x3 (ix2 i j) + (x4 (ix2 i j) + x2 (ix2 i j))
  rw [mul_comm]

/-- THE REFERENCE'S RESULT IS `G` of its five arguments (`x2 = C`, `x3 = W`, `x4 = B`). -/
theorem reference_eq (x0 x1 : SN.Idx → EReal) (x2 x3 x4 : SD.Idx → EReal) :
    val_main_v13 (F := Ideal) x0 x1 x2 x3 x4 = G x0 x1 x2 x3 x4 := by
  funext y
  obtain ⟨k, j, rfl⟩ : ∃ (k : Fin 4096) (j : Fin 256), y = ix2 k j := ⟨y 0, y 1, eq_ix2 y⟩
  rw [val_main_v13_apply, val_main_v12_apply, val_main_v11_apply]
  have e13 : idx_main_v13 (ix2 k j) = ix2 j k :=
    funext fun a => Fin.ext (by match a with | ⟨0, _⟩ => rfl | ⟨1, _⟩ => rfl)
  have e11 : idx_main_v11 (ix2 j k) = ix2 k j :=
    funext fun a => Fin.ext (by match a with | ⟨0, _⟩ => rfl | ⟨1, _⟩ => rfl)
  rw [e13, e11]
  unfold val_main_v10
  have ered := Host.reduce_eq_fold_single (a := (0 : Fin 3)) (FloatOps.maximumf (F := Ideal) (φ := .f32))
    (val_main_v9 (F := Ideal) x0 x2 x3 x4) (val_main_cst (F := Ideal)) reducesTo_S256x256x4096_S256x4096_d0 hred h_S_ (ix2 j k)
  refine (congrArg (fun z => max z (x1 (ix2 k j))) ered).trans ?_
  have ef : (fun i : Fin 256 => val_main_v9 (F := Ideal) x0 x2 x3 x4 (hred.lift (ix2 j k) i)) = term x0 x2 x3 x4 k j :=
    funext fun i => by rw [lift_eq j k i, summand_apply]
  exact congrArg (fun f : Fin 256 → EReal => max ((Finset.univ : Finset (Fin 256)).fold max start f) (x1 (ix2 k j))) ef

end Cert.ReferenceIdeal.RefValue

end
-- ==== Proof.LibMaxFold.lean ====
/-
  Folds of `max` over finite index sets in a linear order, from an arbitrary starting value.

  A fold of `max` is characterised by its universal property (it is below `c` iff the start and every term are;
  `c` is below it iff `c` is below the start or below some term), so two folds are compared term by term, whatever the
  order in which the terms are visited and whatever the index sets are. The last lemma is the one a blocked maximum
  needs: when an index set is cut in four parts, the fold over the whole is the `max` of the four partial folds, each
  taken from the SAME start — the start is then met four times instead of once, which changes nothing because `max` is
  idempotent.
-/
import Mathlib.Data.Finset.Fold
import Mathlib.Data.Fintype.Basic

namespace Cert.LibMaxFold

variable {α : Type*} [LinearOrder α]

/-- The starting value is below the fold. -/
theorem start_le_fold_max {ι : Type*} (s : Finset ι) (f : ι → α) (b : α) : b ≤ s.fold max b f :=
  (Finset.le_fold_max _).2 (Or.inl le_rfl)

/-- Every term is below the fold. -/
theorem term_le_fold_max {ι : Type*} (s : Finset ι) (f : ι → α) (b : α) {x : ι} (hx : x ∈ s) : f x ≤ s.fold max b f :=
  (Finset.le_fold_max _).2 (Or.inr ⟨x, hx, le_rfl⟩)

/-- A fold of `max` is below another fold from the same start as soon as each of its terms is below some term of
    the other. -/
theorem fold_max_le_fold_max {ι κ : Type*} (s : Finset ι) (t : Finset κ) (f : ι → α) (g : κ → α) (b : α)
    (h : ∀ x ∈ s, ∃ y ∈ t, f x ≤ g y) : s.fold max b f ≤ t.fold max b g :=
  (Finset.fold_max_le _).2 ⟨start_le_fold_max t g b, fun x hx => by
    obtain ⟨y, hy, hxy⟩ := h x hx
    exact hxy.trans (term_le_fold_max t g b hy)⟩

/-- Two folds of `max` from the same start whose terms are the same VALUES (each term of one is a term of the other)
    are equal. -/
theorem fold_max_congr_of_terms {ι κ : Type*} (s : Finset ι) (t : Finset κ) (f : ι → α) (g : κ → α) (b : α)
    (h₁ : ∀ x ∈ s, ∃ y ∈ t, f x = g y) (h₂ : ∀ y ∈ t, ∃ x ∈ s, g y = f x) : s.fold max b f = t.fold max b g :=
  le_antisymm
    (fold_max_le_fold_max s t f g b fun x hx => by obtain ⟨y, hy, e⟩ := h₁ x hx; exact ⟨y, hy, e.le⟩)
    (fold_max_le_fold_max t s g f b fun y hy => by obtain ⟨x, hx, e⟩ := h₂ y hy; exact ⟨x, hx, e.le⟩)

/-- THE BLOCKED MAXIMUM. If every term of `f` is a term of one of four families `g₀ … g₃`, and every term of each
    family is a term of `f`, then the fold of `max` over `f` is the `max` of the four folds over the families, all from
    the same start `b`, nested to the left as a running maximum accumulates them. -/
theorem fold_max_eq_max_four {ι κ : Type*} [Fintype ι] [Fintype κ] (f : ι → α) (g₀ g₁ g₂ g₃ : κ → α) (b : α)
    (hsplit : ∀ x, (∃ y, f x = g₀ y) ∨ (∃ y, f x = g₁ y) ∨ (∃ y, f x = g₂ y) ∨ (∃ y, f x = g₃ y))
    (h₀ : ∀ y, ∃ x, g₀ y = f x) (h₁ : ∀ y, ∃ x, g₁ y = f x) (h₂ : ∀ y, ∃ x, g₂ y = f x) (h₃ : ∀ y, ∃ x, g₃ y = f x) :
    (Finset.univ : Finset ι).fold max b f
      = max (max (max ((Finset.univ : Finset κ).fold max b g₀) ((Finset.univ : Finset κ).fold max b g₁))
          ((Finset.univ : Finset κ).fold max b g₂)) ((Finset.univ : Finset κ).fold max b g₃) := by
  have part : ∀ g : κ → α, (∀ y, ∃ x, g y = f x) →
      (Finset.univ : Finset κ).fold max b g ≤ (Finset.univ : Finset ι).fold max b f := fun g hg =>
    fold_max_le_fold_max _ _ g f b fun y _ => by
      obtain ⟨x, e⟩ := hg y; exact ⟨x, Finset.mem_univ x, e.le⟩
  apply le_antisymm
  · refine (Finset.fold_max_le _).2 ⟨?_, fun x _ => ?_⟩
    · exact (start_le_fold_max _ g₀ b).trans
        (le_max_of_le_left (le_max_of_le_left (le_max_left _ _)))
    · rcases hsplit x with ⟨y, e⟩ | ⟨y, e⟩ | ⟨y, e⟩ | ⟨y, e⟩
      · exact (e.le.trans (term_le_fold_max _ g₀ b (Finset.mem_univ y))).trans
          (le_max_of_le_left (le_max_of_le_left (le_max_left _ _)))
      · exact (e.le.trans (term_le_fold_max _ g₁ b (Finset.mem_univ y))).trans
          (le_max_of_le_left (le_max_of_le_left (le_max_right _ _)))
      · exact (e.le.trans (term_le_fold_max _ g₂ b (Finset.mem_univ y))).trans
          (le_max_of_le_left (le_max_right _ _))
      · exact (e.le.trans (term_le_fold_max _ g₃ b (Finset.mem_univ y))).trans (le_max_right _ _)
  · exact max_le (max_le (max_le (part g₀ h₀) (part g₁ h₁)) (part g₂ h₂)) (part g₃ h₃)

end Cert.LibMaxFold
-- ==== Proof.KernelBlock.lean ====
/-
  What the kernel's body leaves in its output block, index by index.

  At a grid point the body holds a block `xb` of 128 rows of `x0`, the two whole transposed tables `wt[j, i] = W[i, j]` and
  `bct[j, i] = (B + C)[i, j]`, and a block `x1b` of 128 rows of `x1`. It cuts the 256 source rows `i` (the lane axis of all
  three) in four quarters of 64; on each quarter it forms the three-axis array  xb[p, o + ii] · wt[q, o + ii] + bct[q, o + ii]
  (row `p`, column `q`, lane `ii`, `o` the quarter's offset) and reduces it with `max` over the lane axis from −∞; it
  accumulates the four results in a running `max` and finally takes the `max` against `x1b`.

  Read at `(p, q)`: the lane reduction is the fold of `max` over the quarter's 64 lanes; the broadcasts and shape casts read
  their operand at the coordinates they keep, the slices and the partial loads at the lane moved by the offset; and the
  running `max` of the four folds is the ONE fold over all 256 source rows (the blocked maximum: `max` is associative,
  commutative and idempotent, so the common start may be met four times). So the block holds, at `(p, q)`,
      max ( max_i ( xb[p, i] · wt[q, i] + bct[q, i] ),  x1b[p, q] ).
-/
import proofs.«119608_j47888885350936_2_alg».proof.Proof.Gen.KernelIdeal.Frame
import proofs.«119608_j47888885350936_2_alg».proof.Proof.LibMaxFold
import proofs.«119608_j47888885350936_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen
open Idealize.ShloMosaic Idealize.ShloMosaic.ValueIdx Cert.Spec

/-- The quantity under the body's maximum at row `p`, column `q` and source row `i`, in the body's own operands. -/
def rowTerm (xb : Vec Ideal S128x256 .f32) (wt bct : Vec Ideal S256x256 .f32) (p : Fin 128) (q : Fin 256) (i : Fin 256) : EReal :=
  xb (ix2 p i) * wt (ix2 q i) + bct (ix2 q i)

/-- The row factor of a quarter: lanes `o … o + 63` of the row block, given a unit middle axis and broadcast over the
    256 columns, read at `(p, q, ii)`, is `xb[p, o + ii]`. -/
theorem rowFactor_apply (o : Nat) (hs : S128x256.Slices ![0, o] S128x64) (xb : Vec Ideal S128x256 .f32)
    (p : Fin 128) (q : Fin 256) (ii : Fin 64) (k : Fin 256) (hk : k.val = o + ii.val) :
    broadcastTo S128x256x64 (shapeCast S128x1x64 (extractStridedSlice S128x64 ![0, o] xb hs) shapeCasts_S128x64_S128x1x64)
        broadcasts_S128x1x64_S128x256x64 (ix3 p q ii) = xb (ix2 p k) := by
  refine (broadcastTo_apply _ _ (ix3 p q ii) (ix3 p (0 : Fin 1) ii) (fun a => ?_)).trans ?_
  · match a with
    | ⟨0, _⟩ => show p.val = if (128 : Nat) = 1 then 0 else p.val; rw [if_neg (by decide)]
    | ⟨1, _⟩ => show 0 = if (1 : Nat) = 1 then 0 else q.val; rw [if_pos rfl]
    | ⟨2, _⟩ => show ii.val = if (64 : Nat) = 1 then 0 else ii.val; rw [if_neg (by decide)]
  refine (shapeCast_apply _ _ (ix3 p (0 : Fin 1) ii) (ix2 p ii) ?_).trans ?_
  · rw [Shape.rowMajor_val_two, Shape.rowMajor_val_three]
    show p.val * 64 + ii.val = (p.val * 1 + 0) * 64 + ii.val
    omega
  exact slice2_axis1_apply o xb hs p ii k hk

/-- A table factor of a quarter: lanes `o … o + 63` of a whole table, loaded through the quarter's rectangle, given a unit
    leading axis and broadcast over the 128 rows, read at `(p, q, ii)`, is `w[q, o + ii]`. -/
theorem tableFactor_apply (o : Nat) (hinb : ∀ a, (![0, o] : Fin 2 → Nat) a + S256x64.size a ≤ S256x256.size a)
    (w : Vec Ideal S256x256 .f32) (p : Fin 128) (q : Fin 256) (ii : Fin 64) (k : Fin 256) (hk : k.val = o + ii.val) :
    broadcastTo S128x256x64 (shapeCast S1x256x64 (shapeCast S256x64
        (View.ld (Val := Elt Ideal) (e' := .f32) w (Rect.unit (s := S256x256) ![0, o] S256x64.size hinb))
        shapeCasts_S256x64_S256x64) shapeCasts_S256x64_S1x256x64) broadcasts_S1x256x64_S128x256x64 (ix3 p q ii)
      = w (ix2 q k) := by
  refine (broadcastTo_apply _ _ (ix3 p q ii) (ix3 (0 : Fin 1) q ii) (fun a => ?_)).trans ?_
  · match a with
    | ⟨0, _⟩ => show 0 = if (1 : Nat) = 1 then 0 else p.val; rw [if_pos rfl]
    | ⟨1, _⟩ => show q.val = if (256 : Nat) = 1 then 0 else q.val; rw [if_neg (by decide)]
    | ⟨2, _⟩ => show ii.val = if (64 : Nat) = 1 then 0 else ii.val; rw [if_neg (by decide)]
  refine (shapeCast_ab_1ab_apply _ _ (0 : Fin 1) q ii).trans ?_
  refine (congrFun (shapeCast_self (s := S256x64)
    (View.ld (Val := Elt Ideal) (e' := .f32) w (Rect.unit (s := S256x256) ![0, o] S256x64.size hinb))
    shapeCasts_S256x64_S256x64) (ix2 q ii)).trans ?_
  refine congrArg w (funext fun a => Fin.ext ?_)
  match a with
  | ⟨0, _⟩ => show 0 + 1 * q.val = q.val; omega
  | ⟨1, _⟩ => show o + 1 * ii.val = k.val; omega

/-- One quarter's lane maximum as a vector over the block: the body's `multi_reduction <maximumf>` over the lane axis of
    the quarter's three-axis array (offset `o`). -/
def quarterVec (o : Nat) (hs : S128x256.Slices ![0, o] S128x64)
    (hinb : ∀ a, (![0, o] : Fin 2 → Nat) a + S256x64.size a ≤ S256x256.size a)
    (xb : Vec Ideal S128x256 .f32) (wt bct : Vec Ideal S256x256 .f32) : FVec Ideal S128x256 .f32 :=
  multiReduction (F := Ideal) .maximumf [2] S128x256
    (addf (mulf
        (broadcastTo S128x256x64 (shapeCast S128x1x64 (extractStridedSlice S128x64 ![0, o] xb hs) shapeCasts_S128x64_S128x1x64)
          broadcasts_S128x1x64_S128x256x64)
        (broadcastTo S128x256x64 (shapeCast S1x256x64 (shapeCast S256x64
          (View.ld (Val := Elt Ideal) (e' := .f32) wt (Rect.unit (s := S256x256) ![0, o] S256x64.size hinb))
          shapeCasts_S256x64_S256x64) shapeCasts_S256x64_S1x256x64) broadcasts_S1x256x64_S128x256x64))
      (broadcastTo S128x256x64 (shapeCast S1x256x64 (shapeCast S256x64
          (View.ld (Val := Elt Ideal) (e' := .f32) bct (Rect.unit (s := S256x256) ![0, o] S256x64.size hinb))
          shapeCasts_S256x64_S256x64) shapeCasts_S256x64_S1x256x64) broadcasts_S1x256x64_S128x256x64))
    0xFF800000#32 reduces_S128x256x64_S128x256 (.inl rfl) rfl

/-- The body's stored value is the running `max` of the four quarters' lane maxima, then the `max` against the `x1`
    block: the payloads unfold to exactly this tree. -/
theorem pay_eq (xb : Vec Ideal S128x256 .f32) (wt bct : Vec Ideal S256x256 .f32) (x1b : Vec Ideal S128x256 .f32) :
    k0_pay1 xb (k0_pay2 xb (View.ld wt r0_1) (View.ld bct r0_1) (View.ld wt r0_2) (View.ld bct r0_2))
        (k0_pay3 xb (View.ld wt r0_3) (View.ld bct r0_3)) (View.ld wt r0_4) (View.ld bct r0_4) x1b
      = maximumf (maximumf (maximumf (maximumf
            (quarterVec 0 slices_S128x256_o0_0_S128x64 inb_S256x256_S256x64_0_0 xb wt bct)
            (quarterVec 64 slices_S128x256_o0_64_S128x64 inb_S256x256_S256x64_0_64 xb wt bct))
            (quarterVec 128 slices_S128x256_o0_128_S128x64 inb_S256x256_S256x64_0_128 xb wt bct))
            (quarterVec 192 slices_S128x256_o0_192_S128x64 inb_S256x256_S256x64_0_192 xb wt bct)) x1b := rfl

/-- ONE QUARTER'S MAXIMUM at `(p, q)`: the fold of `max` from −∞'s value over the quarter's 64 lanes of `rowTerm`. -/
theorem quarterVec_apply (o : Nat) (ho : o + 64 ≤ 256) (hs : S128x256.Slices ![0, o] S128x64)
    (hinb : ∀ a, (![0, o] : Fin 2 → Nat) a + S256x64.size a ≤ S256x256.size a)
    (xb : Vec Ideal S128x256 .f32) (wt bct : Vec Ideal S256x256 .f32) (p : Fin 128) (q : Fin 256) :
    quarterVec o hs hinb xb wt bct (ix2 p q)
      = (Finset.univ : Finset (Fin 64)).fold max start
          (fun ii => rowTerm xb wt bct p q ⟨o + ii.val, by have := ii.isLt; omega⟩) := by
  unfold quarterVec
  refine (Ideal.multiReduction_maximumf_single _ _ reduces_S128x256x64_S128x256 (.inl rfl) rfl (ix2 p q)).trans ?_
  refine congrArg (fun f : Fin 64 → EReal => (Finset.univ : Finset (Fin 64)).fold max start f) (funext fun (ii : Fin 64) => ?_)
  have el : reduces_S128x256x64_S128x256.lift (ix2 p q) ii = ix3 p q ii :=
    funext fun a => Fin.ext (by match a with | ⟨0, _⟩ => rfl | ⟨1, _⟩ => rfl | ⟨2, _⟩ => rfl)
  show (addf (mulf _ _) _) (reduces_S128x256x64_S128x256.lift (ix2 p q) ii) = _
  rw [el]
  show _ * _ + _ = _
  rw [rowFactor_apply o hs xb p q ii ⟨o + ii.val, by have := ii.isLt; omega⟩ rfl,
    tableFactor_apply o hinb wt p q ii ⟨o + ii.val, by have := ii.isLt; omega⟩ rfl,
    tableFactor_apply o hinb bct p q ii ⟨o + ii.val, by have := ii.isLt; omega⟩ rfl]
  rfl

-- from here on a quarter's lane maximum is only read through `quarterVec_apply`
attribute [irreducible] quarterVec

/-- The maximum over all 256 source rows is the running `max` of the four quarters' maxima (the blocked maximum). -/
theorem fold_quarters (f : Fin 256 → EReal) (b : EReal) :
    max (max (max ((Finset.univ : Finset (Fin 64)).fold max b fun ii => f ⟨0 + ii.val, by have := ii.isLt; omega⟩)
          ((Finset.univ : Finset (Fin 64)).fold max b fun ii => f ⟨64 + ii.val, by have := ii.isLt; omega⟩))
        ((Finset.univ : Finset (Fin 64)).fold max b fun ii => f ⟨128 + ii.val, by have := ii.isLt; omega⟩))
      ((Finset.univ : Finset (Fin 64)).fold max b fun ii => f ⟨192 + ii.val, by have := ii.isLt; omega⟩)
      = (Finset.univ : Finset (Fin 256)).fold max b f := by
  refine (LibMaxFold.fold_max_eq_max_four f _ _ _ _ b (fun i => ?_) (fun ii => ⟨_, rfl⟩) (fun ii => ⟨_, rfl⟩)
    (fun ii => ⟨_, rfl⟩) (fun ii => ⟨_, rfl⟩)).symm
  have hi := i.isLt
  by_cases h0 : i.val < 64
  · exact Or.inl ⟨⟨i.val, h0⟩, congrArg f (Fin.ext (by show i.val = 0 + i.val; omega))⟩
  by_cases h1 : i.val < 128
  · exact Or.inr (Or.inl ⟨⟨i.val - 64, by omega⟩, congrArg f (Fin.ext (by show i.val = 64 + (i.val - 64); omega))⟩)
  by_cases h2 : i.val < 192
  · exact Or.inr (Or.inr (Or.inl ⟨⟨i.val - 128, by omega⟩, congrArg f (Fin.ext (by show i.val = 128 + (i.val - 128); omega))⟩))
  · exact Or.inr (Or.inr (Or.inr ⟨⟨i.val - 192, by omega⟩, congrArg f (Fin.ext (by show i.val = 192 + (i.val - 192); omega))⟩))

theorem hz : (![0, 0] : Fin 2 → Nat) = fun _ => 0 := funext fun a => by fin_cases a <;> rfl

/-- WHAT THE BODY LEAVES IN THE OUTPUT BLOCK, at block index `y = (p, q)`:
    `max (max_i (xb[p, i] · wt[q, i] + bct[q, i])) x1b[p, q]`. -/
theorem out_apply (xb : Vec Ideal S128x256 .f32) (wt bct : Vec Ideal S256x256 .f32) (x1b : Vec Ideal S128x256 .f32)
    (y : S128x256.Idx) :
    out0_4 xb wt bct x1b y
      = max ((Finset.univ : Finset (Fin 256)).fold max start (rowTerm xb wt bct (y 0) (y 1))) (x1b y) := by
  obtain ⟨p, q, rfl⟩ : ∃ (p : Fin 128) (q : Fin 256), y = ix2 p q := ⟨y 0, y 1, eq_ix2 y⟩
  show out0_4 xb wt bct x1b (ix2 p q) = max ((Finset.univ : Finset (Fin 256)).fold max start (rowTerm xb wt bct p q)) (x1b (ix2 p q))
  have h1 : out0_4 xb wt bct x1b
      = maximumf (maximumf (maximumf (maximumf
            (quarterVec 0 slices_S128x256_o0_0_S128x64 inb_S256x256_S256x64_0_0 xb wt bct)
            (quarterVec 64 slices_S128x256_o0_64_S128x64 inb_S256x256_S256x64_0_64 xb wt bct))
            (quarterVec 128 slices_S128x256_o0_128_S128x64 inb_S256x256_S256x64_0_128 xb wt bct))
            (quarterVec 192 slices_S128x256_o0_192_S128x64 inb_S256x256_S256x64_0_192 xb wt bct)) x1b := by
    unfold out0_4
    rw [View.canon_unit_zero hz]
    simp only [View.ld_unit_zero (S := S128x256) hz]
    exact pay_eq xb wt bct x1b
  refine (congrFun h1 (ix2 p q)).trans ?_
  refine (maximumf_apply _ x1b (ix2 p q)).trans ?_
  refine (congrArg (fun z => max z (x1b (ix2 p q))) ?_).trans
    (congrArg (fun z => max z (x1b (ix2 p q))) (fold_quarters (rowTerm xb wt bct p q) start))
  refine (maximumf_apply _ _ (ix2 p q)).trans (congrArg₂ max ?_
    (quarterVec_apply 192 (by omega) slices_S128x256_o0_192_S128x64 inb_S256x256_S256x64_0_192 xb wt bct p q))
  refine (maximumf_apply _ _ (ix2 p q)).trans (congrArg₂ max ?_
    (quarterVec_apply 128 (by omega) slices_S128x256_o0_128_S128x64 inb_S256x256_S256x64_0_128 xb wt bct p q))
  exact (maximumf_apply _ _ (ix2 p q)).trans (congrArg₂ max
    (quarterVec_apply 0 (by omega) slices_S128x256_o0_0_S128x64 inb_S256x256_S256x64_0_0 xb wt bct p q)
    (quarterVec_apply 64 (by omega) slices_S128x256_o0_64_S128x64 inb_S256x256_S256x64_0_64 xb wt bct p q))

end Cert.KernelIdeal.Block

end
-- ==== Proof.KernelValue.lean ====
/-
  From the blocks to the whole array: the kernel computes `Cert.Spec.G`.

  The grid has 32 points; point `t` stages rows `128·t … 128·t + 127` of `x0` and of `x1` (all 256 columns), the two whole
  transposed tables, and writes back rows `128·t … 128·t + 127` of the result. So what point `t` writes back is block `t`
  of ONE whole-array function `K` of the arrays as the region finds them (`flushed_eq`: an entry of a row block sits in the
  array at row `128·t + p`, the tables' blocks are the tables), the 32 row blocks tile the 4096 rows (`cover`), and the
  array ends holding `K` (`final`). Before the region the host transposes `W` and `B + C`; a transposed table read at
  `(j, i)` is the table at `(i, j)`, which turns `K` of the region's arrays into `G` of the five arguments.
-/
import proofs.«119608_j47888885350936_2_alg».proof.Proof.ValueBlocks
import proofs.«119608_j47888885350936_2_alg».proof.Proof.KernelBlock
import proofs.«119608_j47888885350936_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The result as a function of the arrays the REGION reads: `x0`, `x1` and the two transposed tables `wt[j, i]`,
    `bct[j, i]`. At `(k, j)`: `max (max_i (x0[k, i] · wt[j, i] + bct[j, i])) x1[k, j]`. -/
def K (x0 x1 : SN.Idx → EReal) (wt bct : SD.Idx → EReal) : SN.Idx → EReal := fun y =>
  max ((Finset.univ : Finset (Fin 256)).fold max start
    (fun i => x0 (ix2 (y 0) i) * wt (ix2 (y 1) i) + bct (ix2 (y 1) i))) (x1 y)

/-- With the tables transposed, `K` is `G`: a transposed table at `(j, i)` is the table at `(i, j)`. -/
theorem K_transposed (x0 x1 : SN.Idx → EReal) (C W B : SD.Idx → EReal)
    (h : (⟨2, ![256, 256]⟩ : Shape).Transposes [1, 0] ⟨2, ![256, 256]⟩) :
    K x0 x1 (transpose ⟨2, ![256, 256]⟩ [1, 0] W h) (transpose ⟨2, ![256, 256]⟩ [1, 0] (fun i => B i + C i) h)
      = G x0 x1 C W B := by
  funext y
  refine congrArg (fun f : Fin 256 → EReal => max ((Finset.univ : Finset (Fin 256)).fold max start f) (x1 y))
    (funext fun i => ?_)
  show x0 (ix2 (y 0) i) * transpose ⟨2, ![256, 256]⟩ [1, 0] W h (ix2 (y 1) i)
      + transpose ⟨2, ![256, 256]⟩ [1, 0] (fun i => B i + C i) h (ix2 (y 1) i)
    = x0 (ix2 (y 0) i) * W (ix2 i (y 1)) + (B (ix2 i (y 1)) + C (ix2 i (y 1)))
  rw [transpose_ix2_apply W h (y 1) i, transpose_ix2_apply (fun i => B i + C i) h (y 1) i]

/-! ## The tables as the region finds them -/

/-- The host's first operation: the region's second operand is `W` transposed. -/
theorem V_wt (c : Dev nD) : (V m c main_v0 : S256x256.Idx → EReal)
    = transpose S256x256 [1, 0] (m ((c : Thread nD τ).loc main_arg3)) transposes_S256x256_S256x256_1_0 := by
  dsimp only [Gen.V, Gen.hostOps0]; after_results

/-- The host's second and third operations: the region's third operand is `B + C` transposed. -/
theorem V_bct (c : Dev nD) : (V m c main_v2 : S256x256.Idx → EReal)
    = transpose S256x256 [1, 0] (addf (F := Ideal) (φ := .f32) (m ((c : Thread nD τ).loc main_arg4)) (m ((c : Thread nD τ).loc main_arg2)))
        transposes_S256x256_S256x256_1_0 := by
  dsimp only [Gen.V, Gen.hostOps0]; after_results

/-! ## What each point writes back -/

/-- The printed index maps, decided over the 32 points: the two row windows move with the output's row block, every
    other block index is `0`. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (1 : Fin 2) = 0 :=
  (by decide +kernel : ∀ t : Fin grid0.N, _)

/-- Every one of the 32 row blocks is some point's. -/
theorem idx_onto : ∀ q0 : Fin 32, ∃ t : Fin cfg0.N, win0_4.index t = ![q0.val, 0] :=
  (by decide +kernel : ∀ q0 : Fin 32, ∃ t : Fin grid0.N, win0_4.index t = ![q0.val, 0])

/-- WHAT POINT `t` WRITES BACK is block `t` of `K` of the arrays as the region finds them. -/
theorem flushed_eq (c : Dev nD) (t : Fin cfg0.N) :
    (dats m 0 c).flushed 4 t = ((cfg0.win 4).blk t).view.read (Elt Ideal)
      (K (V m c main_arg0) (V m c main_arg1) (V m c main_v0) (V m c main_v2)) := by
  rw [ValueP.flushed4]
  obtain ⟨e00, e01, e10, e11, e20, e21, e30, e31, e41⟩ := idx_facts t
  funext y
  show out0_4 (iblk m c 0 t) (iblk m c 1 t) (iblk m c 2 t) (iblk m c 3 t) y
    = K (V m c main_arg0) (V m c main_arg1) (V m c main_v0) (V m c main_v2) (((cfg0.win 4).blk t).view.emb y)
  refine (Block.out_apply (iblk m c 0 t) (iblk m c 1 t) (iblk m c 2 t) (iblk m c 3 t) y).trans ?_
  have hy0 : (y 0).val < 128 := (y 0).isLt
  have hy1 : (y 1).val < 256 := (y 1).isLt
  refine congrArg₂ max (congrArg (fun f : Fin 256 → EReal => (Finset.univ : Finset (Fin 256)).fold max start f)
    (funext fun i => ?_)) ?_
  · have hi : i.val < 256 := i.isLt
    show FloatOps.addf (F := Ideal) (φ := .f32) (FloatOps.mulf (F := Ideal) (φ := .f32)
          (V m c main_arg0 (((cfg0.win 0).blk t).view.emb (ix2 (y 0) i)))
          (V m c main_v0 (((cfg0.win 1).blk t).view.emb (ix2 (y 1) i))))
        (V m c main_v2 (((cfg0.win 2).blk t).view.emb (ix2 (y 1) i)))
      = FloatOps.addf (F := Ideal) (φ := .f32) (FloatOps.mulf (F := Ideal) (φ := .f32)
          (V m c main_arg0 (ix2 ((((cfg0.win 4).blk t).view.emb y) 0) i))
          (V m c main_v0 (ix2 ((((cfg0.win 4).blk t).view.emb y) 1) i)))
        (V m c main_v2 (ix2 ((((cfg0.win 4).blk t).view.emb y) 1) i))
    have h0 : ((cfg0.win 0).blk t).view.emb (ix2 (y 0) i) = ix2 ((((cfg0.win 4).blk t).view.emb y) 0) i := by
      funext a; apply Fin.ext
      match a with
      | ⟨0, _⟩ => show win0_0.index t (0 : Fin 2) * 128 + 1 * (y 0).val = win0_4.index t (0 : Fin 2) * 128 + 1 * (y 0).val; omega
      | ⟨1, _⟩ => show win0_0.index t (1 : Fin 2) * 256 + 1 * i.val = i.val; omega
    have h1 : ((cfg0.win 1).blk t).view.emb (ix2 (y 1) i) = ix2 ((((cfg0.win 4).blk t).view.emb y) 1) i := by
      funext a; apply Fin.ext
      match a with
      | ⟨0, _⟩ => show win0_1.index t (0 : Fin 2) * 256 + 1 * (y 1).val = win0_4.index t (1 : Fin 2) * 256 + 1 * (y 1).val; omega
      | ⟨1, _⟩ => show win0_1.index t (1 : Fin 2) * 256 + 1 * i.val = i.val; omega
    have h2 : ((cfg0.win 2).blk t).view.emb (ix2 (y 1) i) = ix2 ((((cfg0.win 4).blk t).view.emb y) 1) i := by
      funext a; apply Fin.ext
      match a with
      | ⟨0, _⟩ => show win0_2.index t (0 : Fin 2) * 256 + 1 * (y 1).val = win0_4.index t (1 : Fin 2) * 256 + 1 * (y 1).val; omega
      | ⟨1, _⟩ => show win0_2.index t (1 : Fin 2) * 256 + 1 * i.val = i.val; omega
    rw [h0, h1, h2]
    rfl
  · show V m c main_arg1 (((cfg0.win 3).blk t).view.emb y) = V m c main_arg1 (((cfg0.win 4).blk t).view.emb y)
    refine congrArg (V m c main_arg1) (funext fun a => Fin.ext ?_)
    match a with
    | ⟨0, _⟩ => show win0_3.index t (0 : Fin 2) * 128 + 1 * (y 0).val = win0_4.index t (0 : Fin 2) * 128 + 1 * (y 0).val; omega
    | ⟨1, _⟩ => show win0_3.index t (1 : Fin 2) * 256 + 1 * (y 1).val = win0_4.index t (1 : Fin 2) * 256 + 1 * (y 1).val; omega

/-! ## The 32 row blocks tile the array -/

/-- An index of the array is in point `t`'s block iff each coordinate is in the block's range on its axis. -/
theorem mem_blk (t : Fin cfg0.N) (i : S4096x256.Idx) :
    i ∈ ((cfg0.win 4).blk t).view.set ↔ ∀ a : Fin 2, win0_4.index t a * S128x256.size a ≤ (i a).val
      ∧ (i a).val < win0_4.index t a * S128x256.size a + S128x256.size a := by
  show i ∈ ((View.whole main_v3).slice (win0_4.rect t)).set ↔ _
  rw [View.set_slice_whole, Rect.mem_set_unit]
  exact Iff.rfl

/-- Row `r` of the result is in the block of the point whose row block is `r / 128`. -/
theorem cover (i : S4096x256.Idx) :
    ∃ t : Fin cfg0.N, (cfg0.win 4).flush t = true ∧ i ∈ ((cfg0.win 4).blk t).view.set := by
  have hi0 : (i 0).val < 4096 := (i 0).isLt
  have hi1 : (i 1).val < 256 := (i 1).isLt
  obtain ⟨t, ht⟩ := idx_onto ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 256 ≤ (i 1).val ∧ (i 1).val < win0_4.index t (1 : Fin 2) * 256 + 256; omega

/-- THE ARRAY after the run is `K` of the arrays as the region finds them. -/
theorem final (c : Dev nD) : (dats m 0 c).arrAt 4 cfg0.N
    = K (V m c main_arg0) (V m c main_arg1) (V m c main_v0) (V m c main_v2) :=
  (dats m 0 c).arrAt_eq_of_cover 4 _ (fun t _ => flushed_eq m c t) cover

/-- … which is `G` of the five arguments as launched. -/
theorem final_G (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  rw [final, V_main_arg0, V_main_arg1, V_wt, V_bct]
  exact K_transposed _ _ _ _ _ _

/-! ## The run, read -/

/-- Every weakly fair execution of the idealized kernel terminates with the result array at `G` of the arguments and
    the arguments unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_G m c), (h c).2⟩) (ValueP.run_blocks m ρ)

end Cert.KernelIdeal.ArrayValue

end
-- ==== Proof.lean ====
/-
  For every row `k` of `x0` and every output column `j`,

      out[k, j] = max ( max_i ( x0[k, i] · W[i, j] + (B[i, j] + C[i, j]) ),  x1[k, j] ),

  computed two ways. The kernel walks the rows in 32 blocks of 128, keeps the two tables transposed and resident, cuts the
  256 source rows `i` in four quarters of 64 lanes, reduces each quarter with `max` from −∞ and accumulates the four
  results in a running `max`. The reference materialises the whole three-axis array `W[i, j] · x0[k, i] + (B + C)[i, j]`
  and reduces it over `i` in one `max` from −∞. On the extended reals the two agree at every index: the product
  commutes, and `max` is associative, commutative and idempotent, so the maximum over 256 indices is the `max` of the
  maxima over its four quarters, each started from the same −∞ (`Proof/LibMaxFold.lean`, `Proof/KernelBlock.lean`).
  No finiteness of the inputs is used.

  `Proof/Spec.lean` states the common function `G`; `Proof/RefValue.lean` reads the reference's run as `G`;
  `Proof/KernelBlock.lean` reads what the kernel's body leaves in a block, `Proof/KernelValue.lean` carries it from the
  blocks to the whole array; here the five claims are assembled.
-/
import proofs.«119608_j47888885350936_2_alg».proof.Defs
import proofs.«119608_j47888885350936_2_alg».proof.Proof.Gen.Kernel
import proofs.«119608_j47888885350936_2_alg».proof.Proof.Gen.Kernel.Skeleton
import proofs.«119608_j47888885350936_2_alg».proof.Proof.Gen.Kernel.Launch
import proofs.«119608_j47888885350936_2_alg».proof.Proof.Gen.Kernel.Points
import proofs.«119608_j47888885350936_2_alg».proof.Proof.Gen.Kernel.Frame
import proofs.«119608_j47888885350936_2_alg».proof.Proof.Gen.KernelIdeal
import proofs.«119608_j47888885350936_2_alg».proof.Proof.Gen.KernelIdeal.Skeleton
import proofs.«119608_j47888885350936_2_alg».proof.Proof.Gen.KernelIdeal.Launch
import proofs.«119608_j47888885350936_2_alg».proof.Proof.Gen.KernelIdeal.Points
import proofs.«119608_j47888885350936_2_alg».proof.Proof.Gen.KernelIdeal.Frame
import proofs.«119608_j47888885350936_2_alg».proof.Proof.Gen.ReferenceIdeal
import proofs.«119608_j47888885350936_2_alg».proof.Proof.ValueBlocks
import proofs.«119608_j47888885350936_2_alg».proof.Proof.Gen.ReferenceIdeal.Run
import proofs.«119608_j47888885350936_2_alg».proof.Proof.Gen.ReferenceIdeal.Read
import proofs.«119608_j47888885350936_2_alg».proof.Proof.Gen.Pre_finite_inputs
import proofs.«119608_j47888885350936_2_alg».proof.Proof.Spec
import proofs.«119608_j47888885350936_2_alg».proof.Proof.RefValue
import proofs.«119608_j47888885350936_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its run read back, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, both idealized programs end with the result array at `G` of those
    arguments: the kernel by its blocks (`ArrayValue.run`), the reference by its run read at an index (`reference_eq`). -/
theorem algebraic : Cert.algebraic_KernelIdeal_ReferenceIdeal := by
  intro m ρ m' ρ' _ hagree
  refine ⟨fun c => Cert.Spec.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefValue.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
